-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 100
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x256, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x256, .f32⟩
  | .hbm, ⟨52, _⟩ => ⟨S850000x1, .f32⟩
  | .hbm, ⟨53, _⟩ => ⟨S850000x256, .f32⟩
  | .hbm, ⟨54, _⟩ => ⟨S850000x256, .f32⟩
  | .hbm, ⟨55, _⟩ => ⟨S_, .f32⟩
  | .hbm, ⟨56, _⟩ => ⟨S50000x256, .f32⟩
  | .hbm, ⟨57, _⟩ => ⟨S850000x1, .i32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S50000x1, .f32⟩
  | .hbm, ⟨98, _⟩ => ⟨S50000x64, .f32⟩
  | .hbm, ⟨99, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x64, .f32⟩
  | .local _ .vmem, ⟨8, _⟩ => ⟨S2000x64, .f32⟩
  | .local _ .vmem, ⟨9, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 100
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x256, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x256, .f32⟩
  | .hbm, ⟨52, _⟩ => ⟨S850000x1, .f32⟩
  | .hbm, ⟨53, _⟩ => ⟨S850000x256, .f32⟩
  | .hbm, ⟨54, _⟩ => ⟨S850000x256, .f32⟩
  | .hbm, ⟨55, _⟩ => ⟨S_, .f32⟩
  | .hbm, ⟨56, _⟩ => ⟨S50000x256, .f32⟩
  | .hbm, ⟨57, _⟩ => ⟨S850000x1, .i32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S50000x1, .f32⟩
  | .hbm, ⟨98, _⟩ => ⟨S50000x64, .f32⟩
  | .hbm, ⟨99, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealised kernel program's run with its RESULT named.

  The program is seven segments: host operations, the first matrix-product region, host operations, the second
  matrix-product region, host operations. Every weakly fair execution from a memory with zero counters terminates
  without a fault, and in the final state every unscoped buffer holds what the fold of those segments over the
  launch memory leaves in it. Read at the six argument buffers this is the frame; read also at the result buffer
  it names the result: the last boundary's contents at that buffer.
-/
import proofs.«112952_j9698036155051_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the six arguments as launched. -/
theorem run_result : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.GraphSpec.lean ====
/-
  The graph part of a two-layer graph convolution, as pure functions of arrays.

  The network is  out = log_softmax(Â · relu(Â · (X W1) + b1) · W2 + b2)  with Â the symmetrically normalised
  adjacency of the edge list with a self loop added at every node: Â[d, s] sums, over the edges s → d, the weight
  deg(s)^(-1/2) · deg(d)^(-1/2), deg the in-degree (at least 1, because of the self loop).
  Everything here is the part that is NOT a matrix product: the edge endpoints and weights as functions of the
  edge list; and, as functions of the endpoints `s`, `d`, the weights `w` and a node-feature matrix, the
  aggregation Â · T (gather the source rows of T, scale each by its edge's weight, add into the target rows), the
  bias and relu of the hidden layer, the bias and log-softmax of the output layer. Each layer takes the matrix
  product it follows as an ARGUMENT, so two programs that agree on the products agree on the network.
  The functions are stated for any float instance, over the shapes and dimension-number records of the program.
-/
import proofs.«112952_j9698036155051_1_alg».proof.Proof.Gen.KernelIdeal

noncomputable section

namespace Cert.GcnSpec

open Idealize.ShloMosaic Cert.KernelIdeal Cert.KernelIdeal.Gen

variable {F : FTy → Type} [FloatOps F]

/-- The source endpoints: row 0 of the [2, E] edge list as a flat vector, then the node numbers 0 … n-1 (the
    self loops). -/
def endpoints0 (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target endpoints: row 1 of the edge list, then the self loops. -/
def endpoints1 (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Node numbers as gather start indices: a negative number counts from the end (n is added to it), and the
    vector becomes an [E + n, 1] column. -/
def startIndices (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- deg^(-1/2): the in-degree of every node (ones added into the target endpoints' positions), clamped below at
    1, to the power -1/2. -/
def invSqrtDegree (d : (⟨S850000, .i32⟩ : BufTy).Contents (Elt F)) : (⟨S50000, .f32⟩ : BufTy).Contents (Elt F) :=
  Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))) (broadcastInDim S50000 ![] bcast_S_S50000 (constant S_ .f32 0x3F800000#32)))

/-- The weight of every edge: deg(source)^(-1/2) · deg(target)^(-1/2). -/
def edgeWeight (s d : (⟨S850000, .i32⟩ : BufTy).Contents (Elt F)) : (⟨S850000, .f32⟩ : BufTy).Contents (Elt F) :=
  mulf (Host.gather gather_S50000_S850000x1_S850000_n_0_n_n_0_1_1 (invSqrtDegree d) (startIndices s)) (Host.gather gather_S50000_S850000x1_S850000_n_0_n_n_0_1_1 (invSqrtDegree d) (startIndices d))

/-- The hidden layer from the first product T = X W1: relu(Â · T + b), Â · T being, per edge, the source's row of
    T scaled by the edge's weight and added into the target's row. -/
def hidden (s d : (⟨S850000, .i32⟩ : BufTy).Contents (Elt F)) (w : (⟨S850000, .f32⟩ : BufTy).Contents (Elt F))
    (t : (⟨S50000x256, .f32⟩ : BufTy).Contents (Elt F)) (b : (⟨S256, .f32⟩ : BufTy).Contents (Elt F)) :
    (⟨S50000x256, .f32⟩ : BufTy).Contents (Elt F) :=
  maximumf (addf (Host.scatterAdd scatter_S50000x256_S850000x1_S850000x256_1_0_0_1 (broadcastInDim S50000x256 ![] bcast_S_S50000x256 (constant S_ .f32 0x00000000#32)) (broadcastInDim S850000x1 ![0] bcast_S850000_S850000x1_0 d) (mulf (Host.gather gather_S50000x256_S850000x1_S850000x256_1_0_n_n_0_1_1256 t (startIndices s)) (broadcastInDim S850000x256 ![0, 1] bcast_S850000x1_S850000x256_0_1 (broadcastInDim S850000x1 ![0] bcast_S850000_S850000x1_0 w)))) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The output layer's scores from the second product T = H W2: Â · T + b. -/
def scores (s d : (⟨S850000, .i32⟩ : BufTy).Contents (Elt F)) (w : (⟨S850000, .f32⟩ : BufTy).Contents (Elt F))
    (t : (⟨S50000x64, .f32⟩ : BufTy).Contents (Elt F)) (b : (⟨S64, .f32⟩ : BufTy).Contents (Elt F)) :
    (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 t (startIndices s)) (broadcastInDim S850000x64 ![0, 1] bcast_S850000x1_S850000x64_0_1 (broadcastInDim S850000x1 ![0] bcast_S850000_S850000x1_0 w)))) (broadcastInDim S50000x64 ![0, 1] bcast_S1x64_S50000x64_0_1 (broadcastInDim S1x64 ![1] bcast_S64_S1x64_1 b))

/-- A row's scores less the row's maximum (the maximum taken from -inf). -/
def centred (z : (⟨S50000x64, .f32⟩ : BufTy).Contents (Elt F)) : (⟨S50000x64, .f32⟩ : BufTy).Contents (Elt F) :=
  subf z (broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x64_S50000_d1 h_S_))))

/-- log-softmax along each row: the centred scores less the logarithm of the row's sum of their exponentials. -/
def logSoftmax (z : (⟨S50000x64, .f32⟩ : BufTy).Contents (Elt F)) : (⟨S50000x64, .f32⟩ : BufTy).Contents (Elt F) :=
  subf (centred z) (broadcastInDim S50000x64 ![0, 1] bcast_S50000x1_S50000x64_0_1 (Host.log (broadcastInDim S50000x1 ![0] bcast_S50000_S50000x1_0 (Host.reduceAdd (Host.exp (centred z)) (constant S_ .f32 0x00000000#32) reducesTo_S50000x64_S50000_d1 h_S_))))

/-- The network's result from the second product. -/
def output (s d : (⟨S850000, .i32⟩ : BufTy).Contents (Elt F)) (w : (⟨S850000, .f32⟩ : BufTy).Contents (Elt F))
    (t : (⟨S50000x64, .f32⟩ : BufTy).Contents (Elt F)) (b : (⟨S64, .f32⟩ : BufTy).Contents (Elt F)) :
    (⟨S50000x64, .f32⟩ : BufTy).Contents (Elt F) :=
  logSoftmax (scores s d w t b)

end Cert.GcnSpec

end
-- ==== Proof.LibTRefRoundTrip.lean ====
/-
  A host line inside a called function writes its value to a typed buffer, and the next line reads it back at the
  same type. Each of the two steps transports the value along the buffer's type equation, in opposite directions, so
  together they are the identity: `x.ofBuf (x.toBuf v) = v` for every typed reference `x` and every value `v` of its
  type. Rewriting with it removes every write-then-read pair from the composed value of a chain of such lines,
  leaving the plain composition of the lines' operations.
-/
import Idealize.ShloMosaic.Lib.StableHlo

namespace Cert.LibTRefRoundTrip

open Idealize.ShloMosaic

/-- A value written to a typed buffer and read back at the same type is itself: the two transports along the
    buffer's type equation cancel. -/
theorem ofBuf_toBuf {sig : RefSig} {Val : EltTy → Type} {T : BufTy} (x : StableHlo.TRef sig T) (v : T.Contents Val) :
    x.ofBuf (x.toBuf v) = v := by
  obtain ⟨r, rfl, _, _⟩ := x
  rfl

end Cert.LibTRefRoundTrip
-- ==== Proof.KernelStretches.lean ====
/-
  The idealised kernel program's host stretches, read back against the network's graph part.

  Between the launch and the return the program's buffers pass through seven boundaries. The first stretch of host
  operations computes, from the edge list, the source and target endpoints and the edge weights; the first region
  writes the product X W1; the second stretch turns that product into the hidden layer, reading the endpoints and
  weights the first stretch left; the second region writes the product H W2; the last stretch turns that product into
  the result. No later stretch or region writes the endpoints, the weights or an argument, so each is still what the
  first stretch (or the launch) left when it is read. The lines of a called function (the relu, the log-softmax) write
  each value to a typed buffer and read it back; the two transports cancel. For any float instance.
-/
import proofs.«112952_j9698036155051_1_alg».proof.Proof.Gen.KernelIdeal.Frame
import proofs.«112952_j9698036155051_1_alg».proof.Proof.GraphSpec
import proofs.«112952_j9698036155051_1_alg».proof.Proof.LibTRefRoundTrip
import Idealize.ShloMosaic.Lib.StableHlo.Run

set_option maxRecDepth 16384

noncomputable section

namespace Cert.KernelIdeal.Stretches

open Cert.KernelIdeal Cert.KernelIdeal.Gen Cert.GcnSpec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch -/

/-- The source endpoints. -/
theorem first_sources (c : Dev nD) :
    W1 m ρ c (Proc.devRef .tc main_v3) = endpoints0 (m ((c : Thread nD τ).loc main_arg1)) := by
  dsimp only [W1, hostOps0]
  after_results_simp
  rfl

/-- The target endpoints. -/
theorem first_targets (c : Dev nD) :
    W1 m ρ c (Proc.devRef .tc main_v6) = endpoints1 (m ((c : Thread nD τ).loc main_arg1)) := by
  dsimp only [W1, hostOps0]
  after_results_simp
  rfl

/-- The edge weights. -/
theorem first_weights (c : Dev nD) :
    W1 m ρ c (Proc.devRef .tc main_v28)
      = edgeWeight (endpoints0 (m ((c : Thread nD τ).loc main_arg1))) (endpoints1 (m ((c : Thread nD τ).loc main_arg1))) := by
  dsimp only [W1, hostOps0]
  after_results_simp
  rfl

/-- The first stretch writes no argument. -/
theorem first_arg0 (c : Dev nD) : W1 m ρ c (Proc.devRef .tc main_arg0) = m ((c : Thread nD τ).loc main_arg0) := by
  dsimp only [W1, hostOps0]; after_results_simp <;> rfl
theorem first_arg2 (c : Dev nD) : W1 m ρ c (Proc.devRef .tc main_arg2) = m ((c : Thread nD τ).loc main_arg2) := by
  dsimp only [W1, hostOps0]; after_results_simp <;> rfl
theorem first_arg3 (c : Dev nD) : W1 m ρ c (Proc.devRef .tc main_arg3) = m ((c : Thread nD τ).loc main_arg3) := by
  dsimp only [W1, hostOps0]; after_results_simp <;> rfl
theorem first_arg4 (c : Dev nD) : W1 m ρ c (Proc.devRef .tc main_arg4) = m ((c : Thread nD τ).loc main_arg4) := by
  dsimp only [W1, hostOps0]; after_results_simp <;> rfl
theorem first_arg5 (c : Dev nD) : W1 m ρ c (Proc.devRef .tc main_arg5) = m ((c : Thread nD τ).loc main_arg5) := by
  dsimp only [W1, hostOps0]; after_results_simp <;> rfl

/-! ## After the second stretch -/

/-- The hidden layer, from what the first region and the first stretch left. -/
theorem second_hidden (c : Dev nD) :
    W4 m ρ c (Proc.devRef .tc main_v46)
      = hidden (W2 m ρ c (Proc.devRef .tc main_v3)) (W2 m ρ c (Proc.devRef .tc main_v6)) (W2 m ρ c (Proc.devRef .tc main_v28))
          (W2 m ρ c (Proc.devRef .tc main_v29)) (W2 m ρ c (Proc.devRef .tc main_arg3)) := by
  dsimp only [W4, W3, hostOps1, hostOps1_1]
  after_results_simp
  simp only [Cert.LibTRefRoundTrip.ofBuf_toBuf]
  rfl

/-- The second stretch writes neither the endpoints, the weights nor an argument. -/
theorem second_keeps_v3 (c : Dev nD) : W4 m ρ c (Proc.devRef .tc main_v3) = W2 m ρ c (Proc.devRef .tc main_v3) := by
  dsimp only [W4, W3, hostOps1, hostOps1_1]; after_results_simp <;> rfl
theorem second_keeps_v6 (c : Dev nD) : W4 m ρ c (Proc.devRef .tc main_v6) = W2 m ρ c (Proc.devRef .tc main_v6) := by
  dsimp only [W4, W3, hostOps1, hostOps1_1]; after_results_simp <;> rfl
theorem second_keeps_v28 (c : Dev nD) : W4 m ρ c (Proc.devRef .tc main_v28) = W2 m ρ c (Proc.devRef .tc main_v28) := by
  dsimp only [W4, W3, hostOps1, hostOps1_1]; after_results_simp <;> rfl
theorem second_keeps_arg4 (c : Dev nD) : W4 m ρ c (Proc.devRef .tc main_arg4) = W2 m ρ c (Proc.devRef .tc main_arg4) := by
  dsimp only [W4, W3, hostOps1, hostOps1_1]; after_results_simp <;> rfl
theorem second_keeps_arg5 (c : Dev nD) : W4 m ρ c (Proc.devRef .tc main_arg5) = W2 m ρ c (Proc.devRef .tc main_arg5) := by
  dsimp only [W4, W3, hostOps1, hostOps1_1]; after_results_simp <;> rfl

/-! ## After the last stretch -/

/-- The result, from what the second region and the first stretch left. -/
theorem last_output (c : Dev nD) :
    W7 m ρ c (Proc.devRef .tc main_v64)
      = output (W5 m ρ c (Proc.devRef .tc main_v3)) (W5 m ρ c (Proc.devRef .tc main_v6)) (W5 m ρ c (Proc.devRef .tc main_v28))
          (W5 m ρ c (Proc.devRef .tc main_v47)) (W5 m ρ c (Proc.devRef .tc main_arg5)) := by
  dsimp only [W7, W6, hostOps2, hostOps2_1]
  after_results_simp
  simp only [Cert.LibTRefRoundTrip.ofBuf_toBuf]
  rfl

end Cert.KernelIdeal.Stretches

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.LibMatProduct.lean ====
/-
  The product of an [M, K] matrix with a [K, N] matrix as ONE array over the exact extended reals:
  entry (p, q) is the sum over k of A (p, k) * B (k, q).

  Two operations are this array. A host dot_general with plain dimension numbers (no batch axis, the left
  operand contracting its second axis, the right operand its first) is it outright. A matrix-unit product
  of a block of rows of A with the whole of B, taken into the zero accumulator, is the product's entries
  on those rows: the rows of a product depend on the same rows of the left operand only, so a product
  computed a block of rows at a time is the whole product, whatever the block height.
-/
import Idealize.ShloMosaic.PureOps.Ideal.Laws
import Idealize.ShloMosaic.Lib.ValueIdx
import proofs.«112952_j9698036155051_1_alg».proof.Proof.LibPlainMatmul

noncomputable section

namespace Cert.SE.Lib

open Idealize.ShloMosaic Idealize.ShloMosaic.ValueIdx

variable {M K N : Nat}

/-- The matrix product as an array: entry (p, q) is the sum over k of A (p, k) * B (k, q). -/
def matProd (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- Its entry at coordinates (p, q). -/
theorem matProd_apply (A : (⟨2, ![M, K]⟩ : Shape).Idx → EReal) (B : (⟨2, ![K, N]⟩ : Shape).Idx → EReal)
    (p : Fin M) (q : Fin N) : matProd A B (ix2 p q) = ∑ k : Fin K, A (ix2 p k) * B (ix2 k q) := rfl

/-- A host dot_general with plain dimension numbers is the matrix product. -/
theorem hostDot_eq_matProd {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂) :
    Host.dotGeneral d prec A B = matProd A B := by
  funext i
  obtain ⟨p, q, rfl⟩ : ∃ (p : Fin M) (q : Fin N), i = ix2 p q := ⟨i 0, i 1, eq_ix2 i⟩
  have hr : d.contr.rank = 1 := contr_rank_plain d hlc
  have hs : d.contr.size ⟨0, by omega⟩ = K := contr_size_plain d hlc _
  refine (Ideal.dotGeneral_apply d prec .single A B (ix2 p q)).trans ?_
  rw [matProd_apply, ← Equiv.sum_comp (contrEquiv1 d K hr hs).symm]
  refine Finset.sum_congr rfl fun k _ => ?_
  rw [lhsIdx_plain d hlb hln hlc hr hs p q k, rhsIdx_plain d hlb hln hrb hrn hrc hr hs p q k]

/-- A matrix-unit product of R rows with the whole right operand, into the zero accumulator, read at (p, q):
    when row p of the block is row r of A (`hA`) and the right block is B (`hB`), the entry is the product's
    entry (r, q). -/
theorem matmul_rows_eq_matProd {R : Nat} {φ₁ φ₂ : FTy} (d : DotDims ⟨2, ![R, K]⟩ ⟨2, ![K, N]⟩ ⟨2, ![R, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (a : FVec Ideal ⟨2, ![R, K]⟩ φ₁) (b : FVec Ideal ⟨2, ![K, N]⟩ φ₂)
    (A : (⟨2, ![M, K]⟩ : Shape).Idx → EReal) (B : (⟨2, ![K, N]⟩ : Shape).Idx → EReal)
    (p : Fin R) (q : Fin N) (r : Fin M)
    (hA : ∀ k : Fin K, a (ix2 p k) = A (ix2 r k)) (hB : ∀ k : Fin K, b (ix2 k q) = B (ix2 k q)) :
    matmul d prec a b (constant (F := Ideal) ⟨2, ![R, N]⟩ .f32 0x00000000#32) (ix2 p q) = matProd A B (ix2 r q) := by
  rw [matmul_plain_apply d hlb hln hlc hrb hrn hrc prec a b p q, matProd_apply]
  exact Finset.sum_congr rfl fun k _ => by rw [hA k, hB k]

end Cert.SE.Lib

end
-- ==== Proof.ProductRegions.lean ====
/-
  Each of the program's two tiled matrix-product regions leaves, in its result array, the matrix product of its
  two operand arrays as the region finds them (over the exact extended reals).

  A region runs 25 grid points. Point t takes rows 2000 t … 2000 t + 1999 of the left operand (all of its
  columns), the whole right operand, multiplies them into a zero accumulator and writes the 2000 rows of the
  result back as rows 2000 t … 2000 t + 1999 of the result array. Row r of a product depends on row r of the left
  operand only, so what point t writes is rows 2000 t … of the whole product; and every row r of the result
  falls in exactly the point r / 2000, so the 25 blocks cover the array. The narrowing of the operands to the
  matrix unit's input format is the identity on the exact values.
-/
import proofs.«112952_j9698036155051_1_alg».proof.Proof.Gen.KernelIdeal.Frame
import proofs.«112952_j9698036155051_1_alg».proof.Proof.LibMatProduct
import Idealize.ShloMosaic.Lib.Pipeline.Value

noncomputable section

namespace Cert.KernelIdeal.Products

open Cert.KernelIdeal Cert.KernelIdeal.Gen Idealize.ShloMosaic Idealize.ShloMosaic.TcCoe Idealize.ShloMosaic.ValueIdx Idealize.SL.Sem
open Idealize.ShloMosaic.Pipeline (Dat)
open Cert.SE.Lib

-- the buffer contents when a region is entered
variable (V : (c : Dev nD) → (b : Ref sig .tc) → Buf (Elt Ideal) ((c : Thread nD τ).loc b))

/-! ## The first product: [50000, 512] by [512, 256] -/

/-- Zero offsets on both axes. -/
theorem zeros2 : (![0, 0] : Fin 2 → Nat) = fun _ => 0 := funext fun a => by fin_cases a <;> rfl

/-- The index maps over the grid: at point t the left and the result windows are at block row t, block column 0;
    the right window is always at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t, read at (p, k), is the left array at row 2000 t + p, column k. -/
theorem lblk0_apply (c : Dev nD) (t : Fin cfg0.N) (p : Fin 2000) (k : Fin 512) (r : Fin 50000) (hr : r.val = 2000 * t.val + p.val) :
    (iblk0 V c 0 t : Vec Ideal S2000x512 .f32) (ix2 p k) = (V c main_arg0 : S50000x512.Idx → EReal) (ix2 r k) := by
  obtain ⟨e0, e1, -⟩ := index_facts0 t
  unfold iblk0
  rw [View.read_apply]
  show V c main_arg0 _ = V c main_arg0 _
  refine congrArg (V c main_arg0) ?_
  funext a
  apply Fin.ext
  match a with
  | ⟨0, _⟩ => show win0_0.index t 0 * 2000 + 1 * p.val = r.val; rw [e0, hr]; omega
  | ⟨1, _⟩ => show win0_0.index t 1 * 512 + 1 * k.val = k.val; rw [e1]; omega

/-- The right window's block at any point is the right array. -/
theorem rblk0_apply (c : Dev nD) (t : Fin cfg0.N) (k : Fin 512) (q : Fin 256) :
    (iblk0 V c 1 t : Vec Ideal S512x256 .f32) (ix2 k q) = (V c main_arg2 : S512x256.Idx → EReal) (ix2 k q) := by
  obtain ⟨-, -, e2, e3, -⟩ := index_facts0 t
  unfold iblk0
  rw [View.read_apply]
  show V c main_arg2 _ = V c main_arg2 _
  refine congrArg (V c main_arg2) ?_
  funext a
  apply Fin.ext
  match a with
  | ⟨0, _⟩ => show win0_1.index t 0 * 512 + 1 * k.val = k.val; rw [e2]; omega
  | ⟨1, _⟩ => show win0_1.index t 1 * 256 + 1 * q.val = q.val; rw [e3]; omega

/-- What point t writes back is block t of the product of the two arrays as the region finds them. -/
theorem flushed0 (c : Dev nD) (t : Fin cfg0.N) :
    (dat0 V c).flushed 2 t = ((cfg0.win 2).blk t).view.read (Elt Ideal) (matProd (V c main_arg0 : S50000x512.Idx → EReal) (V c main_arg2 : S512x256.Idx → EReal)) := by
  show (cfg0.win 2).cut (grid0.coords t) ((dat0 V c).after 2 t) = _
  rw [after0_2]
  unfold out0_2
  rw [View.canon_unit_zero zeros2]
  simp only [View.ld_unit_zero (S := S2000x512) zeros2, View.ld_unit_zero (S := S512x256) zeros2]
  obtain ⟨-, -, -, -, e4, e5⟩ := index_facts0 t
  have hN : cfg0.N = 25 := N_0
  funext j
  obtain ⟨p, q, rfl⟩ : ∃ (p : Fin 2000) (q : Fin 256), j = ix2 p q := ⟨j 0, j 1, eq_ix2 j⟩
  have hr : 2000 * t.val + p.val < 50000 := by have := t.isLt; have := p.isLt; omega
  have hemb : ((cfg0.win 2).blk t).view.emb (ix2 p q) = (ix2 (⟨2000 * t.val + p.val, hr⟩ : Fin 50000) q : S50000x256.Idx) := by
    funext a
    apply Fin.ext
    match a with
    | ⟨0, _⟩ => show win0_2.index t 0 * 2000 + 1 * p.val = 2000 * t.val + p.val; rw [e4]; omega
    | ⟨1, _⟩ => show win0_2.index t 1 * 256 + 1 * q.val = q.val; rw [e5]; omega
  show k0_pay1 (iblk0 V c 0 t) (iblk0 V c 1 t) (ix2 p q) = matProd (V c main_arg0 : S50000x512.Idx → EReal) (V c main_arg2 : S512x256.Idx → EReal) (((cfg0.win 2).blk t).view.emb (ix2 p q))
  rw [hemb]
  unfold k0_pay1
  exact matmul_rows_eq_matProd dot_S2000x512_S512x256_S2000x256_1_0_0_1_n_n rfl rfl rfl rfl rfl rfl none
    (truncf .bf16 (iblk0 V c 0 t) bitsLt_bf16_f32) (truncf .bf16 (iblk0 V c 1 t) bitsLt_bf16_f32)
    (V c main_arg0 : S50000x512.Idx → EReal) (V c main_arg2 : S512x256.Idx → EReal) p q ⟨2000 * t.val + p.val, hr⟩
    (fun k => lblk0_apply V c t p k ⟨2000 * t.val + p.val, hr⟩ rfl) (fun k => rblk0_apply V c t k q)

/-- Every entry of the result array is in the block of the point its row falls in. -/
theorem cover0 (i : S50000x256.Idx) :
    ∃ t : Fin cfg0.N, (cfg0.win 2).flush t = true ∧ i ∈ ((cfg0.win 2).blk t).view.set := by
  have hN : cfg0.N = 25 := N_0
  have h0 : (i 0).val < 50000 := (i 0).isLt
  have h1 : (i 1).val < 256 := (i 1).isLt
  have ht : (i 0).val / 2000 < cfg0.N := by omega
  obtain ⟨-, -, -, -, e4, e5⟩ := index_facts0 ⟨(i 0).val / 2000, ht⟩
  refine ⟨⟨(i 0).val / 2000, ht⟩, flush0_2 _, ?_⟩
  show i ∈ ((View.whole main_v29).slice (win0_2.rect ⟨(i 0).val / 2000, ht⟩)).set
  rw [View.set_slice_whole, Rect.mem_set_unit]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e5]; omega

/-- After the region the result array holds the product of the two arrays as the region finds them. -/
theorem final0 (c : Dev nD) :
    (dat0 V c).arrAt 2 cfg0.N = matProd (V c main_arg0 : S50000x512.Idx → EReal) (V c main_arg2 : S512x256.Idx → EReal) :=
  (dat0 V c).arrAt_eq_of_cover 2 _ (fun t _ => flushed0 V c t) cover0

/-! ## The second product: [50000, 256] by [256, 64] -/

/-- The index maps over the grid: at point t the left and the result windows are at block row t, block column 0;
    the right window is always at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point t, read at (p, k), is the left array at row 2000 t + p, column k. -/
theorem lblk1_apply (c : Dev nD) (t : Fin cfg1.N) (p : Fin 2000) (k : Fin 256) (r : Fin 50000) (hr : r.val = 2000 * t.val + p.val) :
    (iblk1 V c 0 t : Vec Ideal S2000x256 .f32) (ix2 p k) = (V c main_v46 : S50000x256.Idx → EReal) (ix2 r k) := by
  obtain ⟨e0, e1, -⟩ := index_facts1 t
  unfold iblk1
  rw [View.read_apply]
  show V c main_v46 _ = V c main_v46 _
  refine congrArg (V c main_v46) ?_
  funext a
  apply Fin.ext
  match a with
  | ⟨0, _⟩ => show win1_0.index t 0 * 2000 + 1 * p.val = r.val; rw [e0, hr]; omega
  | ⟨1, _⟩ => show win1_0.index t 1 * 256 + 1 * k.val = k.val; rw [e1]; omega

/-- The right window's block at any point is the right array. -/
theorem rblk1_apply (c : Dev nD) (t : Fin cfg1.N) (k : Fin 256) (q : Fin 64) :
    (iblk1 V c 1 t : Vec Ideal S256x64 .f32) (ix2 k q) = (V c main_arg4 : S256x64.Idx → EReal) (ix2 k q) := by
  obtain ⟨-, -, e2, e3, -⟩ := index_facts1 t
  unfold iblk1
  rw [View.read_apply]
  show V c main_arg4 _ = V c main_arg4 _
  refine congrArg (V c main_arg4) ?_
  funext a
  apply Fin.ext
  match a with
  | ⟨0, _⟩ => show win1_1.index t 0 * 256 + 1 * k.val = k.val; rw [e2]; omega
  | ⟨1, _⟩ => show win1_1.index t 1 * 64 + 1 * q.val = q.val; rw [e3]; omega

/-- What point t writes back is block t of the product of the two arrays as the region finds them (the cast of
    the left block to its own shape changes nothing). -/
theorem flushed1 (c : Dev nD) (t : Fin cfg1.N) :
    (dat1 V c).flushed 2 t = ((cfg1.win 2).blk t).view.read (Elt Ideal) (matProd (V c main_v46 : S50000x256.Idx → EReal) (V c main_arg4 : S256x64.Idx → EReal)) := by
  show (cfg1.win 2).cut (grid1.coords t) ((dat1 V c).after 2 t) = _
  rw [after1_2]
  unfold out1_2
  rw [View.canon_unit_zero zeros2]
  simp only [View.ld_unit_zero (S := S2000x256) zeros2, View.ld_unit_zero (S := S256x64) zeros2]
  obtain ⟨-, -, -, -, e4, e5⟩ := index_facts1 t
  have hN : cfg1.N = 25 := N_1
  funext j
  obtain ⟨p, q, rfl⟩ : ∃ (p : Fin 2000) (q : Fin 64), j = ix2 p q := ⟨j 0, j 1, eq_ix2 j⟩
  have hr : 2000 * t.val + p.val < 50000 := by have := t.isLt; have := p.isLt; omega
  have hemb : ((cfg1.win 2).blk t).view.emb (ix2 p q) = (ix2 (⟨2000 * t.val + p.val, hr⟩ : Fin 50000) q : S50000x64.Idx) := by
    funext a
    apply Fin.ext
    match a with
    | ⟨0, _⟩ => show win1_2.index t 0 * 2000 + 1 * p.val = 2000 * t.val + p.val; rw [e4]; omega
    | ⟨1, _⟩ => show win1_2.index t 1 * 64 + 1 * q.val = q.val; rw [e5]; omega
  show k1_pay1 (iblk1 V c 0 t) (iblk1 V c 1 t) (ix2 p q) = matProd (V c main_v46 : S50000x256.Idx → EReal) (V c main_arg4 : S256x64.Idx → EReal) (((cfg1.win 2).blk t).view.emb (ix2 p q))
  rw [hemb]
  unfold k1_pay1
  exact matmul_rows_eq_matProd dot_S2000x256_S256x64_S2000x64_1_0_0_1_n_n rfl rfl rfl rfl rfl rfl none
    (truncf .bf16 (shapeCast S2000x256 (iblk1 V c 0 t) shapeCasts_S2000x256_S2000x256) bitsLt_bf16_f32) (truncf .bf16 (iblk1 V c 1 t) bitsLt_bf16_f32)
    (V c main_v46 : S50000x256.Idx → EReal) (V c main_arg4 : S256x64.Idx → EReal) p q ⟨2000 * t.val + p.val, hr⟩
    (fun k => by
      exact (congrFun (shapeCast_self (s := S2000x256) (iblk1 V c 0 t : S2000x256.Idx → EReal) shapeCasts_S2000x256_S2000x256) (ix2 p k)).trans
        (lblk1_apply V c t p k ⟨2000 * t.val + p.val, hr⟩ rfl))
    (fun k => rblk1_apply V c t k q)

/-- Every entry of the result array is in the block of the point its row falls in. -/
theorem cover1 (i : S50000x64.Idx) :
    ∃ t : Fin cfg1.N, (cfg1.win 2).flush t = true ∧ i ∈ ((cfg1.win 2).blk t).view.set := by
  have hN : cfg1.N = 25 := N_1
  have h0 : (i 0).val < 50000 := (i 0).isLt
  have h1 : (i 1).val < 64 := (i 1).isLt
  have ht : (i 0).val / 2000 < cfg1.N := by omega
  obtain ⟨-, -, -, -, e4, e5⟩ := index_facts1 ⟨(i 0).val / 2000, ht⟩
  refine ⟨⟨(i 0).val / 2000, ht⟩, flush1_2 _, ?_⟩
  show i ∈ ((View.whole main_v47).slice (win1_2.rect ⟨(i 0).val / 2000, ht⟩)).set
  rw [View.set_slice_whole, Rect.mem_set_unit]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 64 ≤ (i 1).val ∧ (i 1).val < win1_2.index ⟨(i 0).val / 2000, ht⟩ (1 : Fin 2) * 64 + 64
    rw [e5]; omega

/-- After the region the result array holds the product of the two arrays as the region finds them. -/
theorem final1 (c : Dev nD) :
    (dat1 V c).arrAt 2 cfg1.N = matProd (V c main_v46 : S50000x256.Idx → EReal) (V c main_arg4 : S256x64.Idx → EReal) :=
  (dat1 V c).arrAt_eq_of_cover 2 _ (fun t _ => flushed1 V c t) cover1

end Cert.KernelIdeal.Products

end
-- ==== Proof.Network.lean ====
/-
  The whole network as one function of its six arguments, over the exact extended reals:
    out = log_softmax(Â · relu(Â · (X W1) + b1) · W2 + b2),
  the two matrix products as plain sums over the contracted index, everything else the graph part. Both programs are
  shown to end with their result at this function of their arguments.
-/
import proofs.«112952_j9698036155051_1_alg».proof.Proof.GraphSpec
import proofs.«112952_j9698036155051_1_alg».proof.Proof.LibMatProduct

noncomputable section

namespace Cert.GcnSpec

open Idealize.ShloMosaic Cert.KernelIdeal Cert.SE.Lib

/-- The network: features `x`, edge list `e`, first layer `w1`, `b1`, second layer `w2`, `b2`. -/
def network (x : S50000x512.Idx → EReal) (e : (⟨S2x800000, .i32⟩ : BufTy).Contents (Elt Ideal)) (w1 : S512x256.Idx → EReal)
    (b1 : (⟨S256, .f32⟩ : BufTy).Contents (Elt Ideal)) (w2 : S256x64.Idx → EReal) (b2 : (⟨S64, .f32⟩ : BufTy).Contents (Elt Ideal)) :
    (⟨S50000x64, .f32⟩ : BufTy).Contents (Elt Ideal) :=
  output (endpoints0 e) (endpoints1 e) (edgeWeight (endpoints0 e) (endpoints1 e))
    (matProd (hidden (endpoints0 e) (endpoints1 e) (edgeWeight (endpoints0 e) (endpoints1 e)) (matProd x w1) b1 : S50000x256.Idx → EReal) w2) b2

end Cert.GcnSpec

end
-- ==== Proof.KernelValue.lean ====
/-
  The idealised kernel program's result is the network of its arguments (over the exact extended reals).

  Walking the run's boundaries backwards: the result is the last stretch's function of the second region's array, the
  endpoints, the weights and the second bias; the second region's array is the product of the hidden layer with the
  second weight matrix; the hidden layer is the second stretch's function of the first region's array; the first
  region's array is the product of the features with the first weight matrix; and the endpoints, the weights and the
  arguments are, at every boundary where they are read, what the first stretch or the launch left.
-/
import proofs.«112952_j9698036155051_1_alg».proof.Proof.KernelStretches
import proofs.«112952_j9698036155051_1_alg».proof.Proof.ProductRegions
import proofs.«112952_j9698036155051_1_alg».proof.Proof.Network

set_option maxRecDepth 16384

noncomputable section

namespace Cert.KernelIdeal.Result

open Cert.KernelIdeal Cert.KernelIdeal.Gen Cert.GcnSpec Cert.KernelIdeal.Stretches Cert.SE.Lib
open Idealize.ShloMosaic Idealize.ShloMosaic.TcCoe Idealize.SL.Sem

variable (m : (ℓ : Loc nD τ sig) → Buf (Elt Ideal) ℓ) (ρ : Dev nD → PrngReg)

/-! ## When the first region has run -/

theorem sources_at2 (c : Dev nD) : W2 m ρ c (Proc.devRef .tc main_v3) = endpoints0 (m ((c : Thread nD τ).loc main_arg1)) :=
  (W2_of_ne m ρ c main_v3 (by decide)).trans (first_sources m ρ c)
theorem targets_at2 (c : Dev nD) : W2 m ρ c (Proc.devRef .tc main_v6) = endpoints1 (m ((c : Thread nD τ).loc main_arg1)) :=
  (W2_of_ne m ρ c main_v6 (by decide)).trans (first_targets m ρ c)
theorem weights_at2 (c : Dev nD) : W2 m ρ c (Proc.devRef .tc main_v28)
    = edgeWeight (endpoints0 (m ((c : Thread nD τ).loc main_arg1))) (endpoints1 (m ((c : Thread nD τ).loc main_arg1))) :=
  (W2_of_ne m ρ c main_v28 (by decide)).trans (first_weights m ρ c)
theorem arg3_at2 (c : Dev nD) : W2 m ρ c (Proc.devRef .tc main_arg3) = m ((c : Thread nD τ).loc main_arg3) :=
  (W2_of_ne m ρ c main_arg3 (by decide)).trans (first_arg3 m ρ c)
theorem arg4_at2 (c : Dev nD) : W2 m ρ c (Proc.devRef .tc main_arg4) = m ((c : Thread nD τ).loc main_arg4) :=
  (W2_of_ne m ρ c main_arg4 (by decide)).trans (first_arg4 m ρ c)
theorem arg5_at2 (c : Dev nD) : W2 m ρ c (Proc.devRef .tc main_arg5) = m ((c : Thread nD τ).loc main_arg5) :=
  (W2_of_ne m ρ c main_arg5 (by decide)).trans (first_arg5 m ρ c)

/-- The first region's array is the product of the features with the first weight matrix. -/
theorem product1_at2 (c : Dev nD) : W2 m ρ c (Proc.devRef .tc main_v29)
    = matProd (m ((c : Thread nD τ).loc main_arg0) : S50000x512.Idx → EReal) (m ((c : Thread nD τ).loc main_arg2) : S512x256.Idx → EReal) := by
  refine (W2_arr m ρ c 2).trans ((Products.final0 (V1 m ρ) c).trans ?_)
  show matProd (W1 m ρ c (Proc.devRef .tc main_arg0) : S50000x512.Idx → EReal) (W1 m ρ c (Proc.devRef .tc main_arg2) : S512x256.Idx → EReal) = _
  rw [first_arg0, first_arg2]

/-! ## When the second stretch has run -/

/-- The hidden layer. -/
theorem hidden_at4 (c : Dev nD) : W4 m ρ c (Proc.devRef .tc main_v46)
    = hidden (endpoints0 (m ((c : Thread nD τ).loc main_arg1))) (endpoints1 (m ((c : Thread nD τ).loc main_arg1)))
        (edgeWeight (endpoints0 (m ((c : Thread nD τ).loc main_arg1))) (endpoints1 (m ((c : Thread nD τ).loc main_arg1))))
        (matProd (m ((c : Thread nD τ).loc main_arg0) : S50000x512.Idx → EReal) (m ((c : Thread nD τ).loc main_arg2) : S512x256.Idx → EReal))
        (m ((c : Thread nD τ).loc main_arg3)) := by
  rw [second_hidden, sources_at2, targets_at2, weights_at2, product1_at2, arg3_at2]
theorem arg4_at4 (c : Dev nD) : W4 m ρ c (Proc.devRef .tc main_arg4) = m ((c : Thread nD τ).loc main_arg4) :=
  (second_keeps_arg4 m ρ c).trans (arg4_at2 m ρ c)

/-! ## When the second region has run -/

theorem sources_at5 (c : Dev nD) : W5 m ρ c (Proc.devRef .tc main_v3) = endpoints0 (m ((c : Thread nD τ).loc main_arg1)) :=
  (W5_of_ne m ρ c main_v3 (by decide)).trans ((second_keeps_v3 m ρ c).trans (sources_at2 m ρ c))
theorem targets_at5 (c : Dev nD) : W5 m ρ c (Proc.devRef .tc main_v6) = endpoints1 (m ((c : Thread nD τ).loc main_arg1)) :=
  (W5_of_ne m ρ c main_v6 (by decide)).trans ((second_keeps_v6 m ρ c).trans (targets_at2 m ρ c))
theorem weights_at5 (c : Dev nD) : W5 m ρ c (Proc.devRef .tc main_v28)
    = edgeWeight (endpoints0 (m ((c : Thread nD τ).loc main_arg1))) (endpoints1 (m ((c : Thread nD τ).loc main_arg1))) :=
  (W5_of_ne m ρ c main_v28 (by decide)).trans ((second_keeps_v28 m ρ c).trans (weights_at2 m ρ c))
theorem arg5_at5 (c : Dev nD) : W5 m ρ c (Proc.devRef .tc main_arg5) = m ((c : Thread nD τ).loc main_arg5) :=
  (W5_of_ne m ρ c main_arg5 (by decide)).trans ((second_keeps_arg5 m ρ c).trans (arg5_at2 m ρ c))

/-- The second region's array is the product of the hidden layer with the second weight matrix. -/
theorem product2_at5 (c : Dev nD) : W5 m ρ c (Proc.devRef .tc main_v47)
    = matProd (hidden (endpoints0 (m ((c : Thread nD τ).loc main_arg1))) (endpoints1 (m ((c : Thread nD τ).loc main_arg1)))
        (edgeWeight (endpoints0 (m ((c : Thread nD τ).loc main_arg1))) (endpoints1 (m ((c : Thread nD τ).loc main_arg1))))
        (matProd (m ((c : Thread nD τ).loc main_arg0) : S50000x512.Idx → EReal) (m ((c : Thread nD τ).loc main_arg2) : S512x256.Idx → EReal))
        (m ((c : Thread nD τ).loc main_arg3)) : S50000x256.Idx → EReal) (m ((c : Thread nD τ).loc main_arg4) : S256x64.Idx → EReal) := by
  refine (W5_arr m ρ c 2).trans ((Products.final1 (V4 m ρ) c).trans ?_)
  show matProd (W4 m ρ c (Proc.devRef .tc main_v46) : S50000x256.Idx → EReal) (W4 m ρ c (Proc.devRef .tc main_arg4) : S256x64.Idx → EReal) = _
  rw [hidden_at4, arg4_at4]

/-! ## At the return -/

/-- The result buffer holds the network of the arguments. -/
theorem result (c : Dev nD) : W7 m ρ c (Proc.devRef .tc main_v64)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [last_output, sources_at5, targets_at5, weights_at5, product2_at5, arg5_at5]
  rfl

end Cert.KernelIdeal.Result

end
-- ==== Proof.RefRun.lean ====
/-
  The reference program's run, read back against the network's graph part.

  The reference is one straight line of 94 host operations, the same network as the kernel program with each matrix
  product computed by one whole dot_general: the operations that compute the endpoints and edge weights from the edge
  list; the product X W1; the operations that turn it into the hidden layer; the product H W2; the operations that
  turn it into the result. Every weakly fair execution terminates with each buffer at the fold of the operations over
  the launch memory; read stretch by stretch, from ANY contents the stretch starts from, each stretch's result is the
  corresponding function of the graph part applied to what the stretch before left, and no stretch writes the
  endpoints, the weights or an argument it did not compute. The lines of a called function (the relu, the
  log-softmax) write each value to a typed buffer and read it back; the two transports cancel. For any float instance;
  and at the exact extended reals, where each dot_general is the matrix product as a plain sum, the result is the
  network of the arguments.
-/
import proofs.«112952_j9698036155051_1_alg».proof.Proof.Gen.ReferenceIdeal
import proofs.«112952_j9698036155051_1_alg».proof.Proof.GraphSpec
import proofs.«112952_j9698036155051_1_alg».proof.Proof.Network
import proofs.«112952_j9698036155051_1_alg».proof.Proof.LibTRefRoundTrip
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- The endpoints and the edge weights from the edge list: 36 operations. -/
abbrev graphOps : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v3 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v3 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_3 (constantI S_ 32 0#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v20 main_v27 main_v28 (mulf : (⟨S850000, .f32⟩ : BufTy).Contents (Elt F) → (⟨S850000, .f32⟩ : BufTy).Contents (Elt F) → (⟨S850000, .f32⟩ : BufTy).Contents (Elt F)) ]

/-- The first product, X W1. -/
abbrev product1 : HloOp τ sig (Elt F) :=
  binary main_arg0 main_arg2 main_v29 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))

/-- The hidden layer from the first product: 22 operations (the last three the relu's). -/
abbrev hiddenOps : List (HloOp τ sig (Elt F)) :=
  [ nullary main_c_5 (constantI S_ 32 0#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (addi : (⟨S850000, .i32⟩ : BufTy).Contents (Elt F) → (⟨S850000, .i32⟩ : BufTy).Contents (Elt F) → (⟨S850000, .i32⟩ : BufTy).Contents (Elt F)),
    ternary main_v31 main_v33 main_v3 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v34 main_v35 (broadcastInDim S850000x1 ![0] bcast_S850000_S850000x1_0 : (⟨S850000, .i32⟩ : BufTy).Contents (Elt F) → (⟨S850000x1, .i32⟩ : BufTy).Contents (Elt F)),
    binary main_v29 main_v35 main_v36 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v28 main_v37 (broadcastInDim S850000x1 ![0] bcast_S850000_S850000x1_0 : (⟨S850000, .f32⟩ : BufTy).Contents (Elt F) → (⟨S850000x1, .f32⟩ : BufTy).Contents (Elt F)),
    unary main_v37 main_v38 (broadcastInDim S850000x256 ![0, 1] bcast_S850000x1_S850000x256_0_1 : (⟨S850000x1, .f32⟩ : BufTy).Contents (Elt F) → (⟨S850000x256, .f32⟩ : BufTy).Contents (Elt F)),
    binary main_v36 main_v38 main_v39 (mulf : (⟨S850000x256, .f32⟩ : BufTy).Contents (Elt F) → (⟨S850000x256, .f32⟩ : BufTy).Contents (Elt F) → (⟨S850000x256, .f32⟩ : BufTy).Contents (Elt F)),
    nullary main_cst_7 (constant S_ .f32 0x00000000#32),
    unary main_cst_7 main_v40 (broadcastInDim S50000x256 ![] bcast_S_S50000x256 : (⟨S_, .f32⟩ : BufTy).Contents (Elt F) → (⟨S50000x256, .f32⟩ : BufTy).Contents (Elt F)),
    unary main_v6 main_v41 (broadcastInDim S850000x1 ![0] bcast_S850000_S850000x1_0 : (⟨S850000, .i32⟩ : BufTy).Contents (Elt F) → (⟨S850000x1, .i32⟩ : BufTy).Contents (Elt F)),
    ternary main_v40 main_v41 main_v39 main_v42 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v43 (broadcastInDim S1x256 ![1] bcast_S256_S1x256_1 : (⟨S256, .f32⟩ : BufTy).Contents (Elt F) → (⟨S1x256, .f32⟩ : BufTy).Contents (Elt F)),
    unary main_v43 main_v44 (broadcastInDim S50000x256 ![0, 1] bcast_S1x256_S50000x256_0_1 : (⟨S1x256, .f32⟩ : BufTy).Contents (Elt F) → (⟨S50000x256, .f32⟩ : BufTy).Contents (Elt F)),
    binary main_v42 main_v44 main_v45 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v45) (TRef.of (T := ⟨S50000x256, .f32⟩) main_call0_v0) (TRef.of (T := ⟨S50000x256, .f32⟩) main_v46) maximumf ]

/-- The second product, H W2. -/
abbrev product2 : HloOp τ sig (Elt F) :=
  binary main_v46 main_arg4 main_v47 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F))

/-- The result from the second product: 34 operations (the last fifteen the log-softmax's). -/
abbrev outputOps : List (HloOp τ sig (Elt F)) :=
  [ nullary main_c_8 (constantI S_ 32 0#32),
    unary main_c_8 main_v48 (broadcastInDim S850000 ![] bcast_S_S850000 : (⟨S_, .i32⟩ : BufTy).Contents (Elt F) → (⟨S850000, .i32⟩ : BufTy).Contents (Elt F)),
    binary main_v3 main_v48 main_v49 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v50 (broadcastInDim S850000 ![] bcast_S_S850000 : (⟨S_, .i32⟩ : BufTy).Contents (Elt F) → (⟨S850000, .i32⟩ : BufTy).Contents (Elt F)),
    binary main_v3 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v3 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v47 main_v53 main_v54 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v55 (broadcastInDim S850000x1 ![0] bcast_S850000_S850000x1_0 : (⟨S850000, .f32⟩ : BufTy).Contents (Elt F) → (⟨S850000x1, .f32⟩ : BufTy).Contents (Elt F)),
    unary main_v55 main_v56 (broadcastInDim S850000x64 ![0, 1] bcast_S850000x1_S850000x64_0_1 : (⟨S850000x1, .f32⟩ : BufTy).Contents (Elt F) → (⟨S850000x64, .f32⟩ : BufTy).Contents (Elt F)),
    binary main_v54 main_v56 main_v57 (mulf : (⟨S850000x64, .f32⟩ : BufTy).Contents (Elt F) → (⟨S850000x64, .f32⟩ : BufTy).Contents (Elt F) → (⟨S850000x64, .f32⟩ : BufTy).Contents (Elt F)),
    nullary main_cst_10 (constant S_ .f32 0x00000000#32),
    unary main_cst_10 main_v58 (broadcastInDim S50000x64 ![] bcast_S_S50000x64 : (⟨S_, .f32⟩ : BufTy).Contents (Elt F) → (⟨S50000x64, .f32⟩ : BufTy).Contents (Elt F)),
    unary main_v6 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v60 main_v62 main_v63 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0xFF800000#32),
    TRef.binary (TRef.of (T := ⟨S50000x64, .f32⟩) main_v63) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v63) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v64) subf ]

/-- @main's 94 operations, in order (a called function's operations stand in its call's place). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v3 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v3 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_3 (constantI S_ 32 0#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v20 main_v27 main_v28 (mulf : (⟨S850000, .f32⟩ : BufTy).Contents (Elt F) → (⟨S850000, .f32⟩ : BufTy).Contents (Elt F) → (⟨S850000, .f32⟩ : BufTy).Contents (Elt F)),
    binary main_arg0 main_arg2 main_v29 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_c_5 (constantI S_ 32 0#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (addi : (⟨S850000, .i32⟩ : BufTy).Contents (Elt F) → (⟨S850000, .i32⟩ : BufTy).Contents (Elt F) → (⟨S850000, .i32⟩ : BufTy).Contents (Elt F)),
    ternary main_v31 main_v33 main_v3 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v34 main_v35 (broadcastInDim S850000x1 ![0] bcast_S850000_S850000x1_0 : (⟨S850000, .i32⟩ : BufTy).Contents (Elt F) → (⟨S850000x1, .i32⟩ : BufTy).Contents (Elt F)),
    binary main_v29 main_v35 main_v36 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v28 main_v37 (broadcastInDim S850000x1 ![0] bcast_S850000_S850000x1_0 : (⟨S850000, .f32⟩ : BufTy).Contents (Elt F) → (⟨S850000x1, .f32⟩ : BufTy).Contents (Elt F)),
    unary main_v37 main_v38 (broadcastInDim S850000x256 ![0, 1] bcast_S850000x1_S850000x256_0_1 : (⟨S850000x1, .f32⟩ : BufTy).Contents (Elt F) → (⟨S850000x256, .f32⟩ : BufTy).Contents (Elt F)),
    binary main_v36 main_v38 main_v39 (mulf : (⟨S850000x256, .f32⟩ : BufTy).Contents (Elt F) → (⟨S850000x256, .f32⟩ : BufTy).Contents (Elt F) → (⟨S850000x256, .f32⟩ : BufTy).Contents (Elt F)),
    nullary main_cst_7 (constant S_ .f32 0x00000000#32),
    unary main_cst_7 main_v40 (broadcastInDim S50000x256 ![] bcast_S_S50000x256 : (⟨S_, .f32⟩ : BufTy).Contents (Elt F) → (⟨S50000x256, .f32⟩ : BufTy).Contents (Elt F)),
    unary main_v6 main_v41 (broadcastInDim S850000x1 ![0] bcast_S850000_S850000x1_0 : (⟨S850000, .i32⟩ : BufTy).Contents (Elt F) → (⟨S850000x1, .i32⟩ : BufTy).Contents (Elt F)),
    ternary main_v40 main_v41 main_v39 main_v42 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v43 (broadcastInDim S1x256 ![1] bcast_S256_S1x256_1 : (⟨S256, .f32⟩ : BufTy).Contents (Elt F) → (⟨S1x256, .f32⟩ : BufTy).Contents (Elt F)),
    unary main_v43 main_v44 (broadcastInDim S50000x256 ![0, 1] bcast_S1x256_S50000x256_0_1 : (⟨S1x256, .f32⟩ : BufTy).Contents (Elt F) → (⟨S50000x256, .f32⟩ : BufTy).Contents (Elt F)),
    binary main_v42 main_v44 main_v45 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v45) (TRef.of (T := ⟨S50000x256, .f32⟩) main_call0_v0) (TRef.of (T := ⟨S50000x256, .f32⟩) main_v46) maximumf,
    binary main_v46 main_arg4 main_v47 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    nullary main_c_8 (constantI S_ 32 0#32),
    unary main_c_8 main_v48 (broadcastInDim S850000 ![] bcast_S_S850000 : (⟨S_, .i32⟩ : BufTy).Contents (Elt F) → (⟨S850000, .i32⟩ : BufTy).Contents (Elt F)),
    binary main_v3 main_v48 main_v49 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v50 (broadcastInDim S850000 ![] bcast_S_S850000 : (⟨S_, .i32⟩ : BufTy).Contents (Elt F) → (⟨S850000, .i32⟩ : BufTy).Contents (Elt F)),
    binary main_v3 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v3 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v47 main_v53 main_v54 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v55 (broadcastInDim S850000x1 ![0] bcast_S850000_S850000x1_0 : (⟨S850000, .f32⟩ : BufTy).Contents (Elt F) → (⟨S850000x1, .f32⟩ : BufTy).Contents (Elt F)),
    unary main_v55 main_v56 (broadcastInDim S850000x64 ![0, 1] bcast_S850000x1_S850000x64_0_1 : (⟨S850000x1, .f32⟩ : BufTy).Contents (Elt F) → (⟨S850000x64, .f32⟩ : BufTy).Contents (Elt F)),
    binary main_v54 main_v56 main_v57 (mulf : (⟨S850000x64, .f32⟩ : BufTy).Contents (Elt F) → (⟨S850000x64, .f32⟩ : BufTy).Contents (Elt F) → (⟨S850000x64, .f32⟩ : BufTy).Contents (Elt F)),
    nullary main_cst_10 (constant S_ .f32 0x00000000#32),
    unary main_cst_10 main_v58 (broadcastInDim S50000x64 ![] bcast_S_S50000x64 : (⟨S_, .f32⟩ : BufTy).Contents (Elt F) → (⟨S50000x64, .f32⟩ : BufTy).Contents (Elt F)),
    unary main_v6 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v60 main_v62 main_v63 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0xFF800000#32),
    TRef.binary (TRef.of (T := ⟨S50000x64, .f32⟩) main_v63) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v63) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v64) subf ]

/-- The line is its five parts in order. -/
theorem ops_split : (ops : List (HloOp τ sig (Elt F))) = graphOps ++ ([product1] ++ (hiddenOps ++ ([product2] ++ outputOps))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The contents after two lines run one after the other. -/
theorem after_append (l₁ l₂ : List (HloOp τ sig (Elt F))) (X : Valuation τ sig (Elt F)) :
    after (l₁ ++ l₂) X = after l₂ (after l₁ X) := by
  induction l₁ generalizing X with
  | nil => rfl
  | cons op l ih => exact ih (op.result X)

/-! ## Each part, from any contents `X` it starts from -/

section Parts

variable (X : Valuation τ sig (Elt F))

/-- The source endpoints, -/
theorem graph_sources : after graphOps X (Proc.devRef .tc main_v3) = Cert.GcnSpec.endpoints0 (X (Proc.devRef .tc main_arg1)) := by
  after_results_simp
  rfl
/-- the target endpoints, -/
theorem graph_targets : after graphOps X (Proc.devRef .tc main_v6) = Cert.GcnSpec.endpoints1 (X (Proc.devRef .tc main_arg1)) := by
  after_results_simp
  rfl
/-- and the edge weights. -/
theorem graph_weights : after graphOps X (Proc.devRef .tc main_v28)
    = Cert.GcnSpec.edgeWeight (Cert.GcnSpec.endpoints0 (X (Proc.devRef .tc main_arg1))) (Cert.GcnSpec.endpoints1 (X (Proc.devRef .tc main_arg1))) := by
  after_results_simp
  rfl
theorem graph_keeps_arg0 : after graphOps X (Proc.devRef .tc main_arg0) = X (Proc.devRef .tc main_arg0) := by after_results_simp <;> rfl
theorem graph_keeps_arg2 : after graphOps X (Proc.devRef .tc main_arg2) = X (Proc.devRef .tc main_arg2) := by after_results_simp <;> rfl
theorem graph_keeps_arg3 : after graphOps X (Proc.devRef .tc main_arg3) = X (Proc.devRef .tc main_arg3) := by after_results_simp <;> rfl
theorem graph_keeps_arg4 : after graphOps X (Proc.devRef .tc main_arg4) = X (Proc.devRef .tc main_arg4) := by after_results_simp <;> rfl
theorem graph_keeps_arg5 : after graphOps X (Proc.devRef .tc main_arg5) = X (Proc.devRef .tc main_arg5) := by after_results_simp <;> rfl

/-- The first product is the dot_general of its two operands. -/
theorem product1_result : after [product1] X (Proc.devRef .tc main_v29)
    = Host.dotGeneral dot_S50000x512_S512x256_S50000x256_1_0_0_1_n_n none (X (Proc.devRef .tc main_arg0)) (X (Proc.devRef .tc main_arg2)) := by
  after_results_simp <;> rfl
theorem product1_keeps_v3 : after [product1] X (Proc.devRef .tc main_v3) = X (Proc.devRef .tc main_v3) := by after_results_simp <;> rfl
theorem product1_keeps_v6 : after [product1] X (Proc.devRef .tc main_v6) = X (Proc.devRef .tc main_v6) := by after_results_simp <;> rfl
theorem product1_keeps_v28 : after [product1] X (Proc.devRef .tc main_v28) = X (Proc.devRef .tc main_v28) := by after_results_simp <;> rfl
theorem product1_keeps_arg3 : after [product1] X (Proc.devRef .tc main_arg3) = X (Proc.devRef .tc main_arg3) := by after_results_simp <;> rfl
theorem product1_keeps_arg4 : after [product1] X (Proc.devRef .tc main_arg4) = X (Proc.devRef .tc main_arg4) := by after_results_simp <;> rfl
theorem product1_keeps_arg5 : after [product1] X (Proc.devRef .tc main_arg5) = X (Proc.devRef .tc main_arg5) := by after_results_simp <;> rfl

/-- The hidden layer. -/
theorem hidden_result : after hiddenOps X (Proc.devRef .tc main_v46)
    = Cert.GcnSpec.hidden (X (Proc.devRef .tc main_v3)) (X (Proc.devRef .tc main_v6)) (X (Proc.devRef .tc main_v28))
        (X (Proc.devRef .tc main_v29)) (X (Proc.devRef .tc main_arg3)) := by
  after_results_simp
  simp only [Cert.LibTRefRoundTrip.ofBuf_toBuf]
  rfl
theorem hidden_keeps_v3 : after hiddenOps X (Proc.devRef .tc main_v3) = X (Proc.devRef .tc main_v3) := by after_results_simp <;> rfl
theorem hidden_keeps_v6 : after hiddenOps X (Proc.devRef .tc main_v6) = X (Proc.devRef .tc main_v6) := by after_results_simp <;> rfl
theorem hidden_keeps_v28 : after hiddenOps X (Proc.devRef .tc main_v28) = X (Proc.devRef .tc main_v28) := by after_results_simp <;> rfl
theorem hidden_keeps_arg4 : after hiddenOps X (Proc.devRef .tc main_arg4) = X (Proc.devRef .tc main_arg4) := by after_results_simp <;> rfl
theorem hidden_keeps_arg5 : after hiddenOps X (Proc.devRef .tc main_arg5) = X (Proc.devRef .tc main_arg5) := by after_results_simp <;> rfl

/-- The second product is the dot_general of its two operands. -/
theorem product2_result : after [product2] X (Proc.devRef .tc main_v47)
    = Host.dotGeneral dot_S50000x256_S256x64_S50000x64_1_0_0_1_n_n none (X (Proc.devRef .tc main_v46)) (X (Proc.devRef .tc main_arg4)) := by
  after_results_simp <;> rfl
theorem product2_keeps_v3 : after [product2] X (Proc.devRef .tc main_v3) = X (Proc.devRef .tc main_v3) := by after_results_simp <;> rfl
theorem product2_keeps_v6 : after [product2] X (Proc.devRef .tc main_v6) = X (Proc.devRef .tc main_v6) := by after_results_simp <;> rfl
theorem product2_keeps_v28 : after [product2] X (Proc.devRef .tc main_v28) = X (Proc.devRef .tc main_v28) := by after_results_simp <;> rfl
theorem product2_keeps_arg5 : after [product2] X (Proc.devRef .tc main_arg5) = X (Proc.devRef .tc main_arg5) := by after_results_simp <;> rfl

/-- The result. -/
theorem output_result : after outputOps X (Proc.devRef .tc main_v64)
    = Cert.GcnSpec.output (X (Proc.devRef .tc main_v3)) (X (Proc.devRef .tc main_v6)) (X (Proc.devRef .tc main_v28))
        (X (Proc.devRef .tc main_v47)) (X (Proc.devRef .tc main_arg5)) := by
  after_results_simp
  simp only [Cert.LibTRefRoundTrip.ofBuf_toBuf]
  rfl

end Parts

/-! ## The whole line -/

/-- From any contents `X`, the result buffer after the whole line: the graph part's functions and the two dot_generals
    composed, of the argument buffers' contents. -/
theorem result (X : Valuation τ sig (Elt F)) : after ops X (Proc.devRef .tc main_v64)
    = Cert.GcnSpec.output (Cert.GcnSpec.endpoints0 (X (Proc.devRef .tc main_arg1))) (Cert.GcnSpec.endpoints1 (X (Proc.devRef .tc main_arg1)))
        (Cert.GcnSpec.edgeWeight (Cert.GcnSpec.endpoints0 (X (Proc.devRef .tc main_arg1))) (Cert.GcnSpec.endpoints1 (X (Proc.devRef .tc main_arg1))))
        (Host.dotGeneral dot_S50000x256_S256x64_S50000x64_1_0_0_1_n_n none
          (Cert.GcnSpec.hidden (Cert.GcnSpec.endpoints0 (X (Proc.devRef .tc main_arg1))) (Cert.GcnSpec.endpoints1 (X (Proc.devRef .tc main_arg1)))
            (Cert.GcnSpec.edgeWeight (Cert.GcnSpec.endpoints0 (X (Proc.devRef .tc main_arg1))) (Cert.GcnSpec.endpoints1 (X (Proc.devRef .tc main_arg1))))
            (Host.dotGeneral dot_S50000x512_S512x256_S50000x256_1_0_0_1_n_n none (X (Proc.devRef .tc main_arg0)) (X (Proc.devRef .tc main_arg2)))
            (X (Proc.devRef .tc main_arg3)))
          (X (Proc.devRef .tc main_arg4)))
        (X (Proc.devRef .tc main_arg5)) := by
  rw [ops_split, after_append, after_append, after_append, after_append]
  rw [output_result, product2_result, hidden_result, product1_result]
  rw [product2_keeps_v3, product2_keeps_v6, product2_keeps_v28, product2_keeps_arg5]
  rw [hidden_keeps_v3, hidden_keeps_v6, hidden_keeps_v28, hidden_keeps_arg4, hidden_keeps_arg5]
  rw [product1_keeps_v3, product1_keeps_v6, product1_keeps_v28, product1_keeps_arg3, product1_keeps_arg4, product1_keeps_arg5]
  rw [graph_sources, graph_targets, graph_weights, graph_keeps_arg0, graph_keeps_arg2, graph_keeps_arg3, graph_keeps_arg4, graph_keeps_arg5]

/-! ## At the exact extended reals -/

/-- Each dot_general is the matrix product there, so the result is the network of the argument buffers' contents. -/
theorem result_network (X : Valuation τ sig (Elt Ideal)) : after ops X (Proc.devRef .tc main_v64)
    = Cert.GcnSpec.network (X (Proc.devRef .tc main_arg0)) (X (Proc.devRef .tc main_arg1)) (X (Proc.devRef .tc main_arg2))
        (X (Proc.devRef .tc main_arg3)) (X (Proc.devRef .tc main_arg4)) (X (Proc.devRef .tc main_arg5)) := by
  rw [result,
    Cert.SE.Lib.hostDot_eq_matProd dot_S50000x256_S256x64_S50000x64_1_0_0_1_n_n rfl rfl rfl rfl rfl rfl,
    Cert.SE.Lib.hostDot_eq_matProd dot_S50000x512_S512x256_S50000x256_1_0_0_1_n_n rfl rfl rfl rfl rfl rfl]
  rfl

set_option maxRecDepth 8192 in
set_option maxHeartbeats 37600000 in
/-- On every device, from any memory with zero counters: every weakly fair execution of @main terminates with the
    result buffer at the network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64)
        = Cert.GcnSpec.network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (result_network (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.lean ====
/-
  The certificate of a two-layer graph convolution whose two dense products run as tiled matrix-unit kernels, against
  the same network written with whole dot_generals.

  Both programs compute  out = log_softmax(Â · relu(Â · (X W1) + b1) · W2 + b2)  from the features X, the edge list,
  and the two layers' weights and biases, Â the normalised adjacency with self loops. They run the same host
  operations on the same buffers for everything but the two products. The kernel program computes each product 2000
  rows at a time into a zero accumulator, after narrowing the operands to the matrix unit's input format; over the exact
  extended reals the narrowing is the identity and a product computed a block of rows at a time is the whole product,
  entry (r, q) the sum over k of A (r, k) · B (k, q), which is also what the reference's dot_general is. So both end with
  the result buffer at one function of the arguments (`Cert.GcnSpec.network`). No algebraic law beyond this is used (the
  two sums are the same sum, term by term), so the precondition is never opened.
  The three frames: the two kernel programs' are their launch certificates; the reference's is its run with the
  result dropped. The idealisation rewrote nothing, so there is nothing to preserve.
-/
import proofs.«112952_j9698036155051_1_alg».proof.Defs
import proofs.«112952_j9698036155051_1_alg».proof.Proof.Gen.Kernel
import proofs.«112952_j9698036155051_1_alg».proof.Proof.Gen.Kernel.Skeleton
import proofs.«112952_j9698036155051_1_alg».proof.Proof.Gen.Kernel.Launch
import proofs.«112952_j9698036155051_1_alg».proof.Proof.Gen.Kernel.Points
import proofs.«112952_j9698036155051_1_alg».proof.Proof.Gen.Kernel.Frame
import proofs.«112952_j9698036155051_1_alg».proof.Proof.Gen.KernelIdeal
import proofs.«112952_j9698036155051_1_alg».proof.Proof.Gen.KernelIdeal.Skeleton
import proofs.«112952_j9698036155051_1_alg».proof.Proof.Gen.KernelIdeal.Launch
import proofs.«112952_j9698036155051_1_alg».proof.Proof.Gen.KernelIdeal.Points
import proofs.«112952_j9698036155051_1_alg».proof.Proof.Gen.KernelIdeal.Frame
import proofs.«112952_j9698036155051_1_alg».proof.Proof.Gen.ReferenceIdeal
import proofs.«112952_j9698036155051_1_alg».proof.Proof.Gen.Pre_finite_inputs
import proofs.«112952_j9698036155051_1_alg».proof.Proof.KernelRun
import proofs.«112952_j9698036155051_1_alg».proof.Proof.KernelValue
import proofs.«112952_j9698036155051_1_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Hand.run m ρ)

/-- The idealisation rewrote no operation. -/
theorem preserves : Cert.preserves_Kernel_KernelIdeal := trivial

/-- From memories that agree on the six arguments both idealised programs end with the result buffer at the network of
    the arguments: the kernel program by its run read through its two product regions, the reference by its run with
    each dot_general read as the matrix product. -/
theorem algebraic : Cert.algebraic_KernelIdeal_ReferenceIdeal := by
  intro m ρ m' ρ' _ hagree
  refine ⟨fun c => Cert.GcnSpec.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result m ρ c), (h c).2⟩)
      (Cert.KernelIdeal.Named.run_result (F := Ideal) m ρ)
  · refine (θ_run Cert.ReferenceIdeal.defs _ _).mono (fun _ h c => ⟨(h c).1.trans ?_, (h c).2⟩)
      (Cert.ReferenceIdeal.Hand.run m' ρ')
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
